-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 24
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S16384x2048, .f32⟩
  | .hbm, ⟨22, _⟩ => ⟨S16384x2048, .f32⟩
  | .hbm, ⟨23, _⟩ => ⟨S4x4096x2048, .f32⟩
  | .local _ .vmem, ⟨0, _⟩ => ⟨S512x512, .f32⟩
  | .local _ .vmem, ⟨1, _⟩ => ⟨S512x512, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v6 : BitVec 32 := Scalar.muli arg1 c512_i32
  v6
def k0_off1 (i : grid0.Coords) : Fin 2 → Nat :=
  let c0_2 : Index := 0#32
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  ![0, v8.toNat]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S2048x512 : 0 < S2048x512.numel
  shapeCasts_S2048x512_S2048x512 : S2048x512.ShapeCasts S2048x512
  shapeCasts_S16384x2048_S4x4096x2048 : S16384x2048.ShapeCasts S4x4096x2048
  dot_S512x512_S2048x512_S512x2048_1_1_0_0_n_n_wf : DotDims.WF S512x512 S2048x512 S512x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S2048x512.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x2048.size a
  hwx0_0 : ∀ i : grid0.Coords, EltTy.bits .f32 = 32 ∨ (Rect.block (s := S16384x2048) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v9) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_c_6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.KBody.lean ====
/-
  What the kernel body leaves at a grid point, as values. At every point it adds to the accumulator (a 512 × 2048
  scratch block) the product of the point's 512 × 512 activation block with the matching 512 columns of the ternary
  weights; at the first point of a row block the accumulator is first set to zero; at the last point the output
  block is the accumulator scaled by 1/16 and clamped to [-128, 128].
-/
import proofs.«158305_j35399120453871_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.BodyVal
open Cert.KernelIdeal Cert.KernelIdeal.Gen
variable {F : FTy → Type} [FloatOps F]

theorem hz : (![0, 0] : Fin 2 → Nat) = fun _ => 0 := funext fun a => by fin_cases a <;> rfl

/-- The 512 columns of the weights a point reads: columns `512·k …` of all 2048 rows. -/
def wsl (i : grid0.Coords) (x1 : Vec F S2048x2048 .bf16) : Vec F S2048x512 .bf16 :=
  View.ld x1 (Rect.unit (s := S2048x2048) (k0_off1 i) S2048x512.size (k0_off1_inb i))

/-- A middle point leaves `acc + block · columnsᵀ` in the accumulator. -/
theorem sout_B (c : Dev nD) (i : grid0.Coords) (a2 : Memref sig .tc .vmem S512x512 .f32) (h2 : a2.IsWhole)
    (a3 : Memref sig .tc .vmem S2048x2048 .bf16) (h3 : a3.IsWhole) (a4 : Memref sig .tc .vmem S512x2048 .f32) (h4 : a4.IsWhole)
    (a5 : Memref sig .tc .vmem S512x2048 .f32) (h5 : a5.IsWhole) (hc0 : ¬cond0_0 i) (hc1 : ¬cond0_1 i)
    (x0 : Vec F S512x512 .f32) (x1 : Vec F S2048x2048 .bf16) (xs0 : Vec F S512x2048 .f32) :
    sout0_B_0 c i a2 h2 a3 h3 a4 h4 a5 h5 hc0 hc1 x0 x1 xs0 = k0_pay2 x0 (wsl i x1) xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S512x512) hz, View.ld_unit_zero (S := S512x2048) hz]
  rfl

/-- The first point of a row block leaves `0 + block · columnsᵀ`: the accumulator is zeroed, read back, and added to. -/
theorem sout_A (c : Dev nD) (i : grid0.Coords) (a2 : Memref sig .tc .vmem S512x512 .f32) (h2 : a2.IsWhole)
    (a3 : Memref sig .tc .vmem S2048x2048 .bf16) (h3 : a3.IsWhole) (a4 : Memref sig .tc .vmem S512x2048 .f32) (h4 : a4.IsWhole)
    (a5 : Memref sig .tc .vmem S512x2048 .f32) (h5 : a5.IsWhole) (hc0 : cond0_0 i) (hc1 : ¬cond0_1 i)
    (x0 : Vec F S512x512 .f32) (x1 : Vec F S2048x2048 .bf16) :
    sout0_A_0 c i a2 h2 a3 h3 a4 h4 a5 h5 hc0 hc1 x0 x1 = k0_pay2 x0 (wsl i x1) (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_run_names
  rw [View.canon_cons_unit_zero (S := S512x2048) hz, View.readCov_unit_zero (S := S512x2048) _ hz]
  simp only [View.readAt_eq_ld, h2.read_unread, h3.read_unread, View.ld_unit_zero (S := S512x512) hz]
  rfl

/-- The last point of a row block leaves `acc + block · columnsᵀ` in the accumulator … -/
theorem sout_C (c : Dev nD) (i : grid0.Coords) (a2 : Memref sig .tc .vmem S512x512 .f32) (h2 : a2.IsWhole)
    (a3 : Memref sig .tc .vmem S2048x2048 .bf16) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x512 .f32) (x1 : Vec F S2048x2048 .bf16) (xs0 : Vec F S512x2048 .f32) :
    sout0_C_0 c i a2 h2 a3 h3 a4 h4 a5 h5 hc0 hc1 x0 x1 xs0 = k0_pay2 x0 (wsl i x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_run_names
  rw [View.canon_unit_zero hz]
  simp only [View.readAt_eq_ld, h2.read_unread, h3.read_unread, h5.read_unread, View.ld_unit_zero (S := S512x512) hz, View.ld_unit_zero (S := S512x2048) hz]
  rfl

/-- … and the scaled, clamped accumulator in the output block. -/
theorem out_C (c : Dev nD) (i : grid0.Coords) (a2 : Memref sig .tc .vmem S512x512 .f32) (h2 : a2.IsWhole)
    (a3 : Memref sig .tc .vmem S2048x2048 .bf16) (h3 : a3.IsWhole) (a4 : Memref sig .tc .vmem S512x2048 .f32) (h4 : a4.IsWhole)
    (a5 : Memref sig .tc .vmem S512x2048 .f32) (h5 : a5.IsWhole) (hc0 : ¬cond0_0 i) (hc1 : cond0_1 i)
    (x0 : Vec F S512x512 .f32) (x1 : Vec F S2048x2048 .bf16) (xs0 : Vec F S512x2048 .f32) :
    out0_C_2 c i a2 h2 a3 h3 a4 h4 a5 h5 hc0 hc1 x0 x1 xs0 = k0_pay3 (k0_pay2 x0 (wsl i x1) xs0) := by
  unfold out0_C_2
  rw [View.read_writes_eq_canon _ _ _ (cover0_C_2 c i a2 h2 a3 h3 a4 h4 a5 h5 hc0 hc1 x0 x1 xs0)]
  unfold kernelRun0_C
  dsimp only
  sl_unfold_run_names
  rw [View.canon_unit_zero hz, View.readCov_unit_zero (S := S512x2048) _ hz]
  simp only [View.readAt_eq_ld, h2.read_unread, h3.read_unread, h5.read_unread, View.ld_unit_zero (S := S512x512) hz, View.ld_unit_zero (S := S512x2048) hz]
  rfl

end Cert.KernelIdeal.BodyVal
end
-- ==== Proof.Spec.lean ====
/-
  The specification: what both programs compute, as one function of the argument arrays, entry by entry.

  The weights `w` (2048 × 2048) are divided by the mean of their absolute values plus a small offset, rounded to the
  nearest integer (ties to even) and clamped to [-1, 1]: the ternary weights `quant w`. An activation row `(b, s)`
  (2048 entries) is multiplied with row `o` of the ternary weights; the product is scaled by 128/2048 = 1/16 and
  clamped to [-128, 128].
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx
open scoped BigOperators

/-- The activations and the result: 4 batches of 4096 rows of 2048 entries. -/
abbrev SX : Shape := ⟨3, ![4, 4096, 2048]⟩
/-- The weights: 2048 output rows of 2048 entries. -/
abbrev SW : Shape := ⟨2, ![2048, 2048]⟩
/-- The activations with batch and row merged: 16384 rows. -/
abbrev SR : Shape := ⟨2, ![16384, 2048]⟩
/-- A scalar. -/
abbrev S0 : Shape := ⟨0, ![]⟩

/-- Row `(b, s)` of the activations times row `o` of the weights `q`. -/
def dotRow (x : SX.Idx → EReal) (q : SW.Idx → EReal) (b : Fin 4) (s : Fin 4096) (o : Fin 2048) : EReal :=
  ∑ k : Fin 2048, x (ix3 b s k) * q (ix2 o k)

/-- Row `r` of the merged activations times row `o` of the weights `q`. -/
def dotRow2 (X : SR.Idx → EReal) (q : SW.Idx → EReal) (r : Fin 16384) (o : Fin 2048) : EReal :=
  ∑ k : Fin 2048, X (ix2 r k) * q (ix2 o k)

/-- Scale by 1/16, then clamp to [-128, 128]: `min 128 (max (-128) (y / 16))`. -/
def clampScale (y : EReal) : EReal :=
  min (Ideal.ofBits .f32 0x43000000#32) (max (Ideal.ofBits .f32 0xC3000000#32) (y * Ideal.ofBits .f32 0x3D800000#32))

/-- The result at `(b, s, o)`. -/
def result (x : SX.Idx → EReal) (q : SW.Idx → EReal) : SX.Idx → EReal :=
  fun i => clampScale (dotRow x q (i 0) (i 1) (i 2))

/-- The result over merged rows, at `(r, o)`. -/
def result2 (X : SR.Idx → EReal) (q : SW.Idx → EReal) : SR.Idx → EReal :=
  fun j => clampScale (dotRow2 X q (j 0) (j 1))

section Quant

variable (hred : SW.ReducesTo [0, 1] S0) (h0 : 0 < S0.numel) (hb : S0.BroadcastsInDim SW (![] : Fin 0 → Fin SW.rank))

/-- The weights divided by (the mean of their absolute values + the offset): `w / (Σ|w| / 2²² + ε)`. -/
def scaled (w : FVec Ideal SW .f32) : FVec Ideal SW .f32 :=
  Host.divf w (broadcastInDim SW ![] hb (addf (Host.divf (Host.reduceAdd (Host.absf w) (constant (F := Ideal) S0 .f32 0x00000000#32) hred h0) (constant (F := Ideal) S0 .f32 0x4A800000#32)) (constant (F := Ideal) S0 .f32 0x3727C5AC#32)))

/-- The ternary weights: the scaled weights rounded (ties to even) and clamped to [-1, 1]. -/
def quant (w : FVec Ideal SW .f32) : FVec Ideal SW .f32 :=
  minimumf (broadcastInDim SW ![] hb (id (constant (F := Ideal) S0 .f32 0x3F800000#32))) (maximumf (broadcastInDim SW ![] hb (id (constant (F := Ideal) S0 .f32 0xBF800000#32))) (Host.roundeven (scaled hred h0 hb w)))

end Quant

end Cert.BitLinear

end
-- ==== Proof.KValue.lean ====
/-
  The kernel body's values read at an index, over the extended reals. The zeroing payload is 0 at every entry; the
  accumulating payload at (r, o) is the accumulator there plus the sum over the 512 contracted entries of the
  activation block's row r times the weight slice's row o; the final payload scales an entry by 1/16 and clamps it to
  [-128, 128]; and the weight slice a point reads is columns 512·(t mod 4) … of all 2048 rows of the weights.
-/
import proofs.«158305_j35399120453871_2_alg».proof.Proof.KBody
import proofs.«158305_j35399120453871_2_alg».proof.Proof.Spec
import Idealize.ShloMosaic.Lib.ValueIdx
import Idealize.ShloMosaic.PureOps.Ideal.Laws

noncomputable section

namespace Cert.KernelIdeal.BodyVal
open Cert.KernelIdeal Cert.KernelIdeal.Gen Idealize.ShloMosaic Idealize.ShloMosaic.ValueIdx
open scoped BigOperators

/-- The zeroing payload is zero at every entry. -/
theorem pay1_apply (j : S512x2048.Idx) : k0_pay1 (F := Ideal) j = 0 := by
  unfold k0_pay1
  simp only [shapeCast_self]
  exact Ideal.ofBits_zero_f32

/-! ### The contraction's operand indices, coordinate by coordinate -/

/-- The left operand's row is the output's row. -/
theorem lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

/-- The left operand's column is the contracted coordinate. -/
theorem lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q

/-- The right operand's row is the output's column. -/
theorem rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The right operand's column is the contracted coordinate. -/
theorem rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product into the zero accumulator, at `(r, o)`: the sum over the 512 contracted entries. -/
theorem matmul_zero_apply (a : FVec Ideal S512x512 .bf16) (b : FVec Ideal S2048x512 .bf16) (r : Fin 512) (o : Fin 2048) :
    FloatOps.matmul dot_S512x512_S2048x512_S512x2048_1_1_0_0_n_n none a b (constant S512x2048 .f32 0x00000000#32) (ix2 r o)
      = ∑ j : Fin 512, a (ix2 r j) * b (ix2 o j) := by
  rw [Ideal.matmul_constant_zero_apply,
    ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r o)
      ((contrEquiv1 dot_S512x512_S2048x512_S512x2048_1_1_0_0_n_n 512 rfl rfl).symm k) = ix2 r k :=
    funext fun a => Fin.ext (by
      match a with
      | ⟨0, _⟩ => exact lhs_0 _ _
      | ⟨1, _⟩ => exact (lhs_1 _ _).trans hk)
  have er : dot_S512x512_S2048x512_S512x2048_1_1_0_0_n_n.rhsIdx (ix2 r o)
      ((contrEquiv1 dot_S512x512_S2048x512_S512x2048_1_1_0_0_n_n 512 rfl rfl).symm k) = ix2 o k :=
    funext fun a => Fin.ext (by
      match a with
      | ⟨0, _⟩ => exact rhs_0 _ _
      | ⟨1, _⟩ => exact (rhs_1 _ _).trans hk)
  rw [el, er]

/-- The accumulating payload at `(r, o)`: the accumulator plus row `r` of the block times row `o` of the slice. -/
theorem pay2_apply (v3 : Vec Ideal S512x512 .f32) (v9 : Vec Ideal S2048x512 .bf16) (v11 : Vec Ideal S512x2048 .f32) (r : Fin 512) (o : Fin 2048) :
    k0_pay2 v3 v9 v11 (ix2 r o) = v11 (ix2 r o) + ∑ j : Fin 512, v3 (ix2 r j) * v9 (ix2 o j) := by
  unfold k0_pay2
  simp only [shapeCast_self]
  show v11 (ix2 r o) + FloatOps.matmul (F := Ideal) dot_S512x512_S2048x512_S512x2048_1_1_0_0_n_n none _ _ (constant S512x2048 .f32 0x00000000#32) (ix2 r o) = _
  rw [matmul_zero_apply]
  rfl

/-- The final payload scales an entry by 1/16 and clamps it to [-128, 128]. -/
theorem pay3_apply (v20 : Vec Ideal S512x2048 .f32) (j : S512x2048.Idx) : k0_pay3 v20 j = Cert.BitLinear.clampScale (v20 j) := by
  unfold k0_pay3 Cert.BitLinear.clampScale
  rfl

/-- The slice's offsets at a point: row 0, column `512 · (t mod 4)`. -/
theorem koff : ∀ t : Fin cfg0.N, k0_off1 (grid0.coords t) (0 : Fin 2) = 0 ∧ k0_off1 (grid0.coords t) (1 : Fin 2) = 512 * (t.val % 4) :=
  (by decide +kernel : ∀ t : Fin grid0.N, _)

/-- The weight slice a point reads is columns `512 · (t mod 4) …` of all 2048 rows. -/
theorem wsl_apply (t : Fin cfg0.N) (x1 : Vec Ideal S2048x2048 .bf16) (o : Fin 2048) (j : Fin 512) :
    wsl (grid0.coords t) x1 (ix2 o j) = x1 (ix2 o ⟨512 * (t.val % 4) + j.val, by have := j.isLt; omega⟩) := by
  unfold wsl
  show x1 _ = x1 _
  refine congrArg x1 (funext fun a => Fin.ext ?_)
  match a with
  | ⟨0, _⟩ =>
    show k0_off1 (grid0.coords t) 0 + 1 * o.val = o.val
    rw [(koff t).1]; omega
  | ⟨1, _⟩ =>
    show k0_off1 (grid0.coords t) 1 + 1 * j.val = 512 * (t.val % 4) + j.val
    rw [(koff t).2]; omega

end Cert.KernelIdeal.BodyVal

end
-- ==== Proof.KReads.lean ====
/-
  The blocks the kernel's windows read, as entries of the arrays the region finds. Point `t` of the 32 × 4 grid
  works on row block `t / 4` (512 rows of the merged activations) and column block `t % 4` (512 columns); the
  weights' window is the whole array at every point.
-/
import proofs.«158305_j35399120453871_2_alg».proof.Proof.Gen.KernelIdeal.Frame
import Idealize.ShloMosaic.Lib.Pipeline.Value
import Idealize.ShloMosaic.Lib.ValueIdx

noncomputable section
open Idealize.ShloMosaic Idealize.ShloMosaic.TcCoe Idealize.SL.Sem Idealize.ShloMosaic.ValueIdx
open Idealize.ShloMosaic.Pipeline (Dat)

namespace Cert.KernelIdeal.Reads
open Cert.KernelIdeal Cert.KernelIdeal.Gen
variable {F : FTy → Type} [FloatOps F]
variable (m : (ℓ : Loc nD τ sig) → Buf (Elt F) ℓ)

theorem hN : cfg0.N = 128 := N_0

/-- The block indices of the three windows at point `t`: row block `t / 4`, column block `t % 4`. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0 :=
  (by decide +kernel : ∀ t : Fin grid0.N, _)

theorem iblk0_apply (c : Dev nD) (t : Fin cfg0.N) (r : Fin 512) (j : Fin 512) :
    (iblk m c 0 t : Vec F S512x512 .f32) (ix2 r j)
      = V m c main_v9 (ix2 (⟨512 * (t.val / 4) + r.val, by have := t.isLt; have := hN; have := r.isLt; omega⟩ : Fin 16384) (⟨512 * (t.val % 4) + j.val, by have := j.isLt; omega⟩ : Fin 2048)) := by
  obtain ⟨e0, e1, -, -, -, -⟩ := idx_facts t
  unfold iblk
  rw [View.read_apply]
  show V m c main_v9 _ = V m c main_v9 _
  refine congrArg (V m c main_v9) (funext fun a => Fin.ext ?_)
  match a with
  | ⟨0, _⟩ => show win0_0.index t (0 : Fin 2) * 512 + 1 * r.val = 512 * (t.val / 4) + r.val; rw [e0]; omega
  | ⟨1, _⟩ => show win0_0.index t (1 : Fin 2) * 512 + 1 * j.val = 512 * (t.val % 4) + j.val; rw [e1]; omega

theorem iblk1_apply (c : Dev nD) (t : Fin cfg0.N) (o : Fin 2048) (k : Fin 2048) :
    (iblk m c 1 t : Vec F S2048x2048 .bf16) (ix2 o k) = V m c main_v8 (ix2 o k) := by
  obtain ⟨-, -, e0, e1, -, -⟩ := idx_facts t
  unfold iblk
  rw [View.read_apply]
  show V m c main_v8 _ = V m c main_v8 _
  refine congrArg (V m c main_v8) (funext fun a => Fin.ext ?_)
  match a with
  | ⟨0, _⟩ => show win0_1.index t (0 : Fin 2) * 2048 + 1 * o.val = o.val; rw [e0]; omega
  | ⟨1, _⟩ => show win0_1.index t (1 : Fin 2) * 2048 + 1 * k.val = k.val; rw [e1]; omega

end Cert.KernelIdeal.Reads
end
-- ==== Proof.LibBlockAcc.lean ====
import Mathlib.Data.EReal.Basic
import Mathlib.Algebra.BigOperators.Fin
import Mathlib.Algebra.BigOperators.Group.Finset.Sigma
import Mathlib.Logic.Equiv.Fin.Basic

/-!
# A blocked running sum is the whole sum

A contracted axis of `P * L` positions is walked in `P` blocks of `L` positions each; position
`d` of block `k` is index `d + L * k` (the value of `finProdFinEquiv (k, d)`).  An accumulator
starts, at block `0`, from `0` plus the sum over that block, and at each later block adds the
sum over that block to what it holds.  After the last block it holds the sum over the whole
axis.

Two facts make this up.  First, by induction on the block number, the accumulator after block
`j` holds the sum of the block sums of blocks `0, …, j`.  Second, the sum over the whole axis is
the sum over blocks of the sums within blocks: the sum over a product type is an iterated sum,
and `finProdFinEquiv` is a bijection between pairs (block, position) and indices.  Only that
addition is commutative and associative with `0 + x = x` is used, so the statements hold in
any commutative additive monoid, the extended reals among them (no finiteness is needed).
-/

namespace Cert.BlockAcc

open scoped BigOperators

/-- Position `d` of block `k` is index `d + L * k`. -/
theorem tile_val {P L : ℕ} (k : Fin P) (d : Fin L) :
    (finProdFinEquiv (k, d) : Fin (P * L)).val = d.val + L * k.val := rfl

/-- The sum over the whole axis, block by block. -/
theorem sum_tiles {M : Type*} [AddCommMonoid M] {P L : ℕ} (f : Fin (P * L) → M) :
    ∑ c : Fin (P * L), f c = ∑ k : Fin P, ∑ d : Fin L, f (finProdFinEquiv (k, d)) := by
  rw [← Fintype.sum_prod_type']
  exact (Fintype.sum_equiv finProdFinEquiv (fun p => f (finProdFinEquiv p)) f (fun _ => rfl)).symm

/-- The accumulator after block `j` holds the block sums of blocks `0, …, j`. -/
theorem acc_partial {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    ∀ j (hj : j < P), a j = ∑ k ∈ Finset.univ.filter (fun k : Fin P => k.val ≤ j), g k := by
  intro j
  induction j with
  | zero =>
    intro hj
    have hset : Finset.univ.filter (fun k : Fin P => k.val ≤ 0) = {⟨0, hP⟩} := by
      ext k
      simp only [Finset.mem_filter, Finset.mem_univ, true_and, Finset.mem_singleton, Fin.ext_iff]
      omega
    rw [h0, zero_add, hset, Finset.sum_singleton]
  | succ j ih =>
    intro hj
    have hset : Finset.univ.filter (fun k : Fin P => k.val ≤ j + 1)
        = insert ⟨j + 1, hj⟩ (Finset.univ.filter (fun k : Fin P => k.val ≤ j)) := by
      ext k
      simp only [Finset.mem_filter, Finset.mem_univ, true_and, Finset.mem_insert, Fin.ext_iff]
      omega
    have hnot : (⟨j + 1, hj⟩ : Fin P) ∉ Finset.univ.filter (fun k : Fin P => k.val ≤ j) := by
      simp
    rw [hs j hj, ih (by omega), hset, Finset.sum_insert hnot, add_comm]

/-- After the last block the accumulator holds the sum of all block sums. -/
theorem acc_blocks {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    a (P - 1) = ∑ k : Fin P, g k := by
  rw [acc_partial hP g a h0 hs (P - 1) (by omega)]
  refine Finset.sum_congr ?_ (fun _ _ => rfl)
  ext k
  simp only [Finset.mem_filter, Finset.mem_univ, true_and, iff_true]
  have := k.isLt
  omega

/-- The accumulator law: after the last block the accumulator holds the sum over the whole axis. -/
theorem acc_eq_sum {P L : ℕ} (hP : 0 < P) (f : Fin (P * L) → EReal) (a : ℕ → EReal)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The same law in any commutative additive monoid. -/
theorem acc_eq_sum' {M : Type*} [AddCommMonoid M] {P L : ℕ} (hP : 0 < P) (f : Fin (P * L) → M) (a : ℕ → M)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The accumulator law at every index of a family: the two recursions hold at each `i`, so does
    the conclusion. -/
theorem acc_eq_sum_pointwise {ι : Type*} {P L : ℕ} (hP : 0 < P) (F : ι → Fin (P * L) → EReal)
    (A : ℕ → ι → EReal)
    (h0 : ∀ i, A 0 i = 0 + ∑ d : Fin L, F i (finProdFinEquiv ((⟨0, hP⟩ : Fin P), d)))
    (hs : ∀ i j (hj : j + 1 < P),
      A (j + 1) i = A j i + ∑ d : Fin L, F i (finProdFinEquiv ((⟨j + 1, hj⟩ : Fin P), d))) :
    ∀ i, A (P - 1) i = ∑ k : Fin (P * L), F i k :=
  fun i => acc_eq_sum hP (F i) (fun j => A j i) (h0 i) (hs i)

end Cert.BlockAcc
-- ==== Proof.KFold.lean ====
/-
  The accumulation over the four column blocks of a row block. After the point of column block `s` the accumulator
  holds, at `(r, o)`, the partial product over the columns `0 … 512·(s+1) - 1`; after the last one the whole row
  product `Σ_k X(row, k) · W(o, k)`, and the output block is that product scaled by 1/16 and clamped.
-/
import proofs.«158305_j35399120453871_2_alg».proof.Proof.KValue
import proofs.«158305_j35399120453871_2_alg».proof.Proof.KReads
import proofs.«158305_j35399120453871_2_alg».proof.Proof.LibBlockAcc

noncomputable section
open Idealize.ShloMosaic Idealize.ShloMosaic.TcCoe Idealize.SL.Sem Idealize.ShloMosaic.ValueIdx
open Idealize.ShloMosaic.Pipeline (Dat)
open scoped BigOperators

namespace Cert.KernelIdeal.Fold
open Cert.KernelIdeal Cert.KernelIdeal.Gen Cert.KernelIdeal.BodyVal Cert.KernelIdeal.Reads Cert.BitLinear

variable (m : (ℓ : Loc nD τ sig) → Buf (Elt Ideal) ℓ)

/-- The merged activations and the ternary weights as the region finds them. -/
abbrev X (c : Dev nD) : SR.Idx → EReal := V m c main_v9
abbrev W (c : Dev nD) : SW.Idx → EReal := V m c main_v8

/-- The product of row `512·(n/4) + r` with weight row `o` over column block `n % 4`: what point `n` adds at `(r, o)`. -/
def bp (c : Dev nD) (n : ℕ) (hn : n < cfg0.N) (r : Fin 512) (o : Fin 2048) : EReal :=
  ∑ j : Fin 512,
    X m c (ix2 (⟨512 * (n / 4) + r.val, by have := hN; have := r.isLt; omega⟩ : Fin 16384) (⟨512 * (n % 4) + j.val, by have := j.isLt; omega⟩ : Fin 2048))
      * W m c (ix2 o (⟨512 * (n % 4) + j.val, by have := j.isLt; omega⟩ : Fin 2048))

/-- The body's accumulator update at point `t`, read at `(r, o)`: what was there plus the point's block product. -/
theorem pay2_at (c : Dev nD) (t : Fin cfg0.N) (xs : Vec Ideal S512x2048 .f32) (r : Fin 512) (o : Fin 2048) :
    k0_pay2 (iblk m c 0 t) (wsl (grid0.coords t) (iblk m c 1 t)) xs (ix2 r o) = xs (ix2 r o) + bp m c t.val t.isLt r o := by
  refine (pay2_apply (iblk m c 0 t) (wsl (grid0.coords t) (iblk m c 1 t)) xs r o).trans ?_
  refine congrArg (xs (ix2 r o) + ·) (Finset.sum_congr rfl fun j _ => ?_)
  rw [wsl_apply t (iblk m c 1 t) o j, iblk0_apply m c t r j, iblk1_apply m c t o]

/-- After the first point of a row block: `0 +` its block product. -/
theorem scratch_first (c : Dev nD) (n : ℕ) (hn : n < cfg0.N) (h0 : n % 4 = 0) (r : Fin 512) (o : Fin 2048) :
    (outsAt0 m c n hn).2 (ix2 r o) = 0 + bp m c n hn r o := by
  have h1 : ¬(⟨n, hn⟩ : Fin cfg0.N).val % 4 = 3 := by dsimp only; omega
  rw [outsAt0_A m c ⟨n, hn⟩ h0 h1]
  dsimp only
  rw [sout_A]
  refine (pay2_at m c ⟨n, hn⟩ (k0_pay1 (F := Ideal)) r o).trans ?_
  rw [pay1_apply]

/-- After a later point: what the point before left plus this point's block product. -/
theorem scratch_step (c : Dev nD) (n : ℕ) (hn : n + 1 < cfg0.N) (h0 : ¬(n + 1) % 4 = 0) (r : Fin 512) (o : Fin 2048) :
    (outsAt0 m c (n + 1) hn).2 (ix2 r o) = (outsAt0 m c n (Nat.lt_of_succ_lt hn)).2 (ix2 r o) + bp m c (n + 1) hn r o := by
  by_cases h1 : (n + 1) % 4 = 3
  · rw [outsAt0_C m c ⟨n + 1, hn⟩ h0 h1]
    dsimp only
    rw [sout_C]
    exact pay2_at m c ⟨n + 1, hn⟩ _ r o
  · rw [outsAt0_B m c ⟨n + 1, hn⟩ h0 h1]
    dsimp only
    rw [sout_B]
    exact pay2_at m c ⟨n + 1, hn⟩ _ r o

/-- At the last point of a row block the output block is the accumulator scaled and clamped. -/
theorem out_last (c : Dev nD) (n : ℕ) (hn : n < cfg0.N) (h1 : n % 4 = 3) (j : S512x2048.Idx) :
    (outsAt0 m c n hn).1 j = clampScale ((outsAt0 m c n hn).2 j) := by
  have h0 : ¬(⟨n, hn⟩ : Fin cfg0.N).val % 4 = 0 := by dsimp only; omega
  rw [outsAt0_C m c ⟨n, hn⟩ h0 h1]
  dsimp only
  rw [out_C, sout_C]
  exact pay3_apply _ j

/-- The accumulator after the four points `q, q+1, q+2, q+3` of a row block. -/
theorem scratch_last (c : Dev nD) (q : ℕ) (hq : q + 3 < cfg0.N) (h0 : q % 4 = 0) (r : Fin 512) (o : Fin 2048) :
    (outsAt0 m c (q + 3) hq).2 (ix2 r o)
      = 0 + bp m c q (by omega) r o + bp m c (q + 1) (by omega) r o + bp m c (q + 2) (by omega) r o + bp m c (q + 3) hq r o := by
  rw [scratch_step m c (q + 2) hq (by omega) r o, scratch_step m c (q + 1) (by omega) (by omega) r o,
    scratch_step m c q (by omega) (by omega) r o, scratch_first m c q (by omega) h0 r o]

end Cert.KernelIdeal.Fold
end
-- ==== Proof.RowSum.lean ====
/-
  A row product over 2048 columns is the chain of its four 512-column block products: starting from zero and adding
  the products over columns 0 … 511, 512 … 1023, 1024 … 1535, 1536 … 2047 in turn gives the product over all 2048
  columns. Only that addition on the extended reals is commutative and associative with `0 + x = x` is used.
-/
import proofs.«158305_j35399120453871_2_alg».proof.Proof.Spec
import proofs.«158305_j35399120453871_2_alg».proof.Proof.LibBlockAcc

noncomputable section

namespace Cert.BitLinear

open Idealize.ShloMosaic Idealize.ShloMosaic.ValueIdx
open scoped BigOperators

/-- Row `R` of the activations times row `o` of the weights over the 512 columns of block `s`. -/
def colBlock (X : SR.Idx → EReal) (W : SW.Idx → EReal) (R : Fin 16384) (o : Fin 2048) (s : ℕ) (hs : s < 4) : EReal :=
  ∑ j : Fin 512, X (ix2 R (⟨512 * s + j.val, by have := j.isLt; omega⟩ : Fin 2048)) * W (ix2 o (⟨512 * s + j.val, by have := j.isLt; omega⟩ : Fin 2048))

/-- The summand of the row product at column `k`, the columns counted as `4 · 512`. -/
def rowTerm (X : SR.Idx → EReal) (W : SW.Idx → EReal) (R : Fin 16384) (o : Fin 2048) (k : Fin (4 * 512)) : EReal :=
  X (ix2 R (⟨k.val, by have := k.isLt; omega⟩ : Fin 2048)) * W (ix2 o (⟨k.val, by have := k.isLt; omega⟩ : Fin 2048))

/-- The row product is the sum of its summands over the `4 · 512` columns. -/
theorem dotRow2_eq_sum (X : SR.Idx → EReal) (W : SW.Idx → EReal) (R : Fin 16384) (o : Fin 2048) :
    dotRow2 X W R o = ∑ k : Fin (4 * 512), rowTerm X W R o k := rfl

/-- The summands over the positions of block `k` add up to the block product: position `d` of block `k` is column
    `d + 512 · k = 512 · k + d`. -/
theorem block_eq (X : SR.Idx → EReal) (W : SW.Idx → EReal) (R : Fin 16384) (o : Fin 2048) (k : Fin 4) :
    ∑ d : Fin 512, rowTerm X W R o (finProdFinEquiv (k, d)) = colBlock X W R o k.val k.isLt := by
  unfold colBlock rowTerm
  refine Finset.sum_congr rfl fun d _ => ?_
  have hk := k.isLt
  have hd := d.isLt
  have e : ∀ (h1 : ((finProdFinEquiv (k, d) : Fin (4 * 512))).val < 2048) (h2 : 512 * k.val + d.val < 2048),
      (⟨((finProdFinEquiv (k, d) : Fin (4 * 512))).val, h1⟩ : Fin 2048) = ⟨512 * k.val + d.val, h2⟩ :=
    fun _ _ => Fin.ext (show ((finProdFinEquiv (k, d) : Fin (4 * 512))).val = 512 * k.val + d.val by
      rw [Cert.BlockAcc.tile_val]; omega)
  rw [e]

/-- Zero plus the four block products, added in turn, is the row product. -/
theorem row_sum (X : SR.Idx → EReal) (W : SW.Idx → EReal) (R : Fin 16384) (o : Fin 2048) :
    0 + colBlock X W R o 0 (by omega) + colBlock X W R o 1 (by omega) + colBlock X W R o 2 (by omega) + colBlock X W R o 3 (by omega)
      = dotRow2 X W R o := by
  rw [dotRow2_eq_sum, Cert.BlockAcc.sum_tiles, Fin.sum_univ_four, block_eq, block_eq, block_eq, block_eq, zero_add]
  rfl

end Cert.BitLinear

end
-- ==== Proof.KFlush.lean ====
/-
  From the blocks to the array. The point that ends row block `p` (point `4p + 3`) writes back the 512 × 2048 block
  of rows `512p … 512p + 511`, and that block is the block of ONE function of the arrays the region finds: at
  `(R, o)` the row product `Σ_k X(R, k) · W(o, k)` scaled by 1/16 and clamped. The 32 blocks tile the 16384 rows,
  so the region's output array ends holding that function.
-/
import proofs.«158305_j35399120453871_2_alg».proof.Proof.KFold
import proofs.«158305_j35399120453871_2_alg».proof.Proof.RowSum

noncomputable section
open Idealize.ShloMosaic Idealize.ShloMosaic.TcCoe Idealize.SL.Sem Idealize.ShloMosaic.ValueIdx
open Idealize.ShloMosaic.Pipeline (Dat)
open scoped BigOperators

namespace Cert.KernelIdeal.Flush
open Cert.KernelIdeal Cert.KernelIdeal.Gen Cert.KernelIdeal.BodyVal Cert.KernelIdeal.Reads Cert.KernelIdeal.Fold Cert.BitLinear

variable (m : (ℓ : Loc nD τ sig) → Buf (Elt Ideal) ℓ)

/-- What point `q + s` adds (`q` the first point of its row block) is the product over column block `s`. -/
theorem bp_eq_colBlock (c : Dev nD) (q s : ℕ) (hs : s < 4) (hq : q + s < cfg0.N) (h0 : q % 4 = 0) (r : Fin 512) (o : Fin 2048) :
    bp m c (q + s) hq r o
      = colBlock (X m c) (W m c) (⟨512 * (q / 4) + r.val, by have := hN; have := r.isLt; omega⟩ : Fin 16384) o s hs := by
  have e1 : (q + s) / 4 = q / 4 := by omega
  have e2 : (q + s) % 4 = s := by omega
  unfold bp colBlock
  refine Finset.sum_congr rfl fun j _ => ?_
  simp only [e1, e2]

/-- The output block of the point that ends a row block: the specification at rows `512·(n/4) + r`. -/
theorem out_at (c : Dev nD) (n : ℕ) (hn : n < cfg0.N) (h3 : n % 4 = 3) (r : Fin 512) (o : Fin 2048) :
    (outsAt0 m c n hn).1 (ix2 r o)
      = result2 (X m c) (W m c) (ix2 (⟨512 * (n / 4) + r.val, by have := hN; have := r.isLt; omega⟩ : Fin 16384) o) := by
  rw [out_last m c n hn h3]
  show clampScale _ = clampScale (dotRow2 (X m c) (W m c) _ o)
  refine congrArg clampScale ?_
  obtain ⟨q, rfl⟩ : ∃ q, n = q + 3 := ⟨n - 3, by omega⟩
  have h0 : q % 4 = 0 := by omega
  have hN' := hN
  have e0 : bp m c q (by omega) r o = colBlock (X m c) (W m c) (⟨512 * (q / 4) + r.val, by have := r.isLt; omega⟩ : Fin 16384) o 0 (by omega) :=
    bp_eq_colBlock m c q 0 (by omega) (by omega) h0 r o
  rw [scratch_last m c q hn h0 r o, e0, bp_eq_colBlock m c q 1 (by omega) (by omega) h0 r o,
    bp_eq_colBlock m c q 2 (by omega) (by omega) h0 r o, bp_eq_colBlock m c q 3 (by omega) hn h0 r o, row_sum]
  have e : (q + 3) / 4 = q / 4 := by omega
  simp only [e]

/-- What the point that ends a row block writes back is its block of the specification. -/
theorem flushed_eq (c : Dev nD) (t : Fin cfg0.N) (hf : (cfg0.win 2).flush t = true) :
    (dats m 0 c).flushed 2 t = ((cfg0.win 2).blk t).view.read (Elt Ideal) (result2 (X m c) (W m c)) := by
  have h3 : t.val % 4 = 3 := (flush0_2 t).mp hf
  obtain ⟨-, -, -, -, e0, e1⟩ := idx_facts t
  show (cfg0.win 2).cut (grid0.coords t) ((dats m 0 c).after 2 t) = _
  rw [after0_2]
  funext y
  have hy0 : (y 0).val < 512 := (y 0).isLt
  have hy1 : (y 1).val < 2048 := (y 1).isLt
  show (outsAt0 m c t.val t.isLt).1 y = result2 (X m c) (W m c) (((cfg0.win 2).blk t).view.emb y)
  have hy : y = ix2 (⟨(y 0).val, hy0⟩ : Fin 512) (⟨(y 1).val, hy1⟩ : Fin 2048) := by
    funext a
    match a with
    | ⟨0, _⟩ => rfl
    | ⟨1, _⟩ => rfl
  have hemb : ((cfg0.win 2).blk t).view.emb y
      = ix2 (⟨512 * (t.val / 4) + (y 0).val, by have := hN; have := t.isLt; omega⟩ : Fin 16384) (⟨(y 1).val, hy1⟩ : Fin 2048) := by
    funext a; apply Fin.ext
    match a with
    | ⟨0, _⟩ => show win0_2.index t (0 : Fin 2) * 512 + 1 * (y 0).val = 512 * (t.val / 4) + (y 0).val; rw [e0]; omega
    | ⟨1, _⟩ => show win0_2.index t (1 : Fin 2) * 2048 + 1 * (y 1).val = (y 1).val; rw [e1]; omega
  rw [hemb]
  exact (congrArg (outsAt0 m c t.val t.isLt).1 hy).trans (out_at m c t.val t.isLt h3 ⟨(y 0).val, hy0⟩ ⟨(y 1).val, hy1⟩)

/-- An index of the output array is in point `t`'s block iff each coordinate is in the block's range. -/
theorem mem_blk (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v10).slice (win0_2.rect t)).set ↔ _
  rw [View.set_slice_whole, Rect.mem_set_unit]
  exact Iff.rfl

/-- Every row lies in the block of the point that ends its row block. -/
theorem cover (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  have hN' := hN
  let t : Fin cfg0.N := ⟨4 * ((i 0).val / 512) + 3, by omega⟩
  have ht : t.val = 4 * ((i 0).val / 512) + 3 := rfl
  obtain ⟨-, -, -, -, e0, e1⟩ := idx_facts t
  refine ⟨t, (flush0_2 t).mpr (by omega), ?_⟩
  rw [mem_blk]
  intro a
  match a with
  | ⟨0, _⟩ => show win0_2.index t (0 : Fin 2) * 512 ≤ (i 0).val ∧ (i 0).val < win0_2.index t (0 : Fin 2) * 512 + 512; rw [e0]; omega
  | ⟨1, _⟩ => show win0_2.index t (1 : Fin 2) * 2048 ≤ (i 1).val ∧ (i 1).val < win0_2.index t (1 : Fin 2) * 2048 + 2048; rw [e1]; omega

/-- The region's output array after the run is the specification over merged rows. -/
theorem final (c : Dev nD) : (dats m 0 c).arrAt 2 cfg0.N = result2 (X m c) (W m c) :=
  (dats m 0 c).arrAt_eq_of_cover 2 (result2 (X m c) (W m c)) (fun t hf => flushed_eq m c t hf) cover

end Cert.KernelIdeal.Flush
end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.HostSide.lean ====
/-
  The kernel program's operations around its region, read as values on the extended reals, and one law of layout.

  Before the region the program computes the ternary weights of its second argument (then changes their format, which
  on the extended reals is the identity) and merges the first two axes of its first argument: [4, 4096, 2048] becomes
  [16384, 2048]. After the region it splits the rows of the region's output again: [16384, 2048] becomes
  [4, 4096, 2048]. The law of layout: merging the rows, computing row by row, and splitting the rows again gives the
  entry-by-entry result, because row r = b · 4096 + s of the merged array is row (b, s) of the original.
-/
import proofs.«158305_j35399120453871_2_alg».proof.Proof.Gen.KernelIdeal.Frame
import proofs.«158305_j35399120453871_2_alg».proof.Proof.Spec
import proofs.«158305_j35399120453871_2_alg».proof.Proof.LibLayout
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.ValueIdx Cert.BitLinear
open scoped BigOperators

variable (m : (ℓ : Loc nD τ sig) → Buf (Elt Ideal) ℓ)

/-- The merged activations the region finds are the reshape of the argument. -/
theorem V_v9 (c : Dev nD) : (V m c main_v9 : S16384x2048.Idx → EReal)
    = shapeCast S16384x2048 (m ((c : Thread nD τ).loc main_arg0)) Facts₀.shapeCasts_S4x4096x2048_S16384x2048 := by
  dsimp only [Gen.V, Gen.V0]
  simp only [hostOps0, hostOps0_1, hostOps0_2, hostOps0_3, hostOps0_4, List.flatten_cons, List.flatten_nil, List.append_nil, List.cons_append, List.nil_append]
  after_results
  rfl

/-- The weights the region finds are the ternary weights of the argument: the operations before the region are the
    specification's chain (absolute values, their sum, the divisor, the quotient, rounding, the clamp to [-1, 1]), and
    the change of format that follows is the identity on the extended reals. -/
theorem V_v8 (c : Dev nD) : (V m c main_v8 : S2048x2048.Idx → EReal)
    = quant Facts₀.reducesTo_S2048x2048_S_d0_1 Facts₀.h_S_ Facts₀.bcast_S_S2048x2048 (m ((c : Thread nD τ).loc main_arg1)) := by
  dsimp only [Gen.V, Gen.V0]
  simp only [hostOps0, hostOps0_1, hostOps0_2, hostOps0_3, hostOps0_4, List.flatten_cons, List.flatten_nil, List.append_nil, List.cons_append, List.nil_append]
  after_results
  rfl

/-- The program's result is the reshape of what the region's output array ends holding: the one operation after the
    region reads that array, which the region leaves at its final contents. -/
theorem tail_eq (c : Dev nD) (G : S16384x2048.Idx → EReal) (hfinal : (dats m 0 c).arrAt 2 cfg0.N = G) :
    Pipeline.afterTail₀ cfgs (dats m) 0 (V0 m) [hostOps1] c main_v11
      = shapeCast S4x4096x2048 G Facts₀.shapeCasts_S16384x2048_S4x4096x2048 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10) = G :=
    (Pipeline.withArrays_arr spec0 launch0.win.arr_inj c _ _ 2).trans hfinal
  rw [e]
  rfl

/-- The law of layout at an entry (b, s, o): the split array reads the merged result at row r = b · 4096 + s, whose
    row product reads the merged activations at (r, k), which are the activations at (b, s, k). -/
theorem result_reshape_at (x : SX.Idx → EReal) (q : SW.Idx → EReal) (h1 : SX.ShapeCasts SR) (h2 : SR.ShapeCasts SX)
    (b : Fin 4) (s : Fin 4096) (o : Fin 2048) :
    shapeCast SX (result2 (shapeCast SR x h1) q) h2 (ix3 b s o) = result x q (ix3 b s o) := by
  have hb := b.isLt
  have hs := s.isLt
  have hr : b.val * 4096 + s.val < 16384 := by omega
  refine (Cert.LibLayout.shapeCast_nc_abc_apply (a := 4) (b := 4096) (c := 2048) (n := 16384)
    (result2 (shapeCast SR x h1) q) h2 b s o ⟨b.val * 4096 + s.val, hr⟩ rfl).trans ?_
  show clampScale (dotRow2 (shapeCast SR x h1) q ⟨b.val * 4096 + s.val, hr⟩ o) = clampScale (dotRow x q b s o)
  refine congrArg clampScale ?_
  unfold dotRow2 dotRow
  refine Finset.sum_congr rfl fun k _ => ?_
  rw [Cert.LibLayout.shapeCast_abc_nc_apply (a := 4) (b := 4096) (c := 2048) (n := 16384) x h1 b s k ⟨b.val * 4096 + s.val, hr⟩ rfl]

/-- Pure layout: merging rows, computing row by row, and splitting the rows again is the entry-by-entry result. -/
theorem result_reshape (x : SX.Idx → EReal) (q : SW.Idx → EReal) (h1 : SX.ShapeCasts SR) (h2 : SR.ShapeCasts SX) :
    shapeCast SX (result2 (shapeCast SR x h1) q) h2 = result x q := by
  funext i
  rw [eq_ix3 i]
  exact result_reshape_at x q h1 h2 (i 0) (i 1) (i 2)

end Cert.KernelIdeal.HostSide

end
-- ==== Proof.KRun.lean ====
/-
  The kernel program's run, read: its result array ends at the specification of its argument arrays. The region's
  output array holds the specification over merged rows of the arrays the region finds (the reshaped activations,
  the ternary weights), and the program's last line splits the rows again.
-/
import proofs.«158305_j35399120453871_2_alg».proof.Proof.KFlush
import proofs.«158305_j35399120453871_2_alg».proof.Proof.HostSide

noncomputable section
open Idealize.ShloMosaic Idealize.ShloMosaic.TcCoe Idealize.SL.Sem Idealize.ShloMosaic.ValueIdx
open Idealize.ShloMosaic.Pipeline (Dat)

namespace Cert.KernelIdeal.RunVal
open Cert.KernelIdeal Cert.KernelIdeal.Gen Cert.KernelIdeal.Fold Cert.KernelIdeal.Flush Cert.KernelIdeal.HostSide Cert.BitLinear

variable (m : (ℓ : Loc nD τ sig) → Buf (Elt Ideal) ℓ) (ρ : Dev nD → PrngReg)

/-- The ternary weights of the weight argument. -/
abbrev q (c : Dev nD) : SW.Idx → EReal :=
  quant Facts₀.reducesTo_S2048x2048_S_d0_1 Facts₀.h_S_ Facts₀.bcast_S_S2048x2048 (m ((c : Thread nD τ).loc main_arg1))

/-- The program's result: the specification of the two arguments. -/
theorem value (c : Dev nD) :
    Pipeline.afterTail₀ cfgs (dats m) 0 (V0 m) [hostOps1] c main_v11 = result (m ((c : Thread nD τ).loc main_arg0)) (q m c) := by
  refine (tail_eq m c _ (final m c)).trans ?_
  show shapeCast S4x4096x2048 (result2 (V m c main_v9 : S16384x2048.Idx → EReal) (V m c main_v8 : S2048x2048.Idx → EReal)) _ = _
  rw [V_v9 m c, V_v8 m c]
  exact result_reshape _ _ _ _

/-- Every weakly fair execution terminates with the result array at the specification and the arguments unchanged. -/
theorem run : θ_run defs (onTc (τ := τ) (main (F := Ideal))) ⟨m, fun _ => 0, ρ⟩ fun r => ∀ c : Dev nD,
      r.2.mem ((c.tc : Thread nD τ).loc main_v11) = result (m ((c : Thread nD τ).loc main_arg0)) (q m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunVal
end
-- ==== Proof.LibEps.lean ====
import Idealize.ShloMosaic.PureOps.Ideal.Laws

/-!
# The variance offset is a positive real

The single-precision pattern `0x3727C5AC` has sign `0`, exponent field `110` and fraction field
`2606508`, so it denotes `(2^23 + 2606508) · 2^(110 - 127 - 23) = 10995116 / 2^40`, the
single-precision number nearest `10⁻⁵`.  All that is used of it is that it is a real number
and positive: added to a variance `v ≥ 0` it gives a positive real, whose reciprocal square
root is a positive real.
-/

namespace Cert.BnFold

open Idealize.ShloMosaic

/-- The pattern `0x3727C5AC` denotes the real `10995116 / 2^40`. -/
theorem eps_eq : Ideal.ofBits .f32 0x3727C5AC#32 = (((10995116 : ℝ) * (2 ^ 40)⁻¹ : ℝ) : EReal) := by
  simp [Ideal.ofBits, Ideal.ieee, -EReal.coe_mul]

/-- The pattern `0x3727C5AC` denotes a positive real. -/
theorem eps_real : ∃ e : ℝ, 0 < e ∧ Ideal.ofBits .f32 0x3727C5AC#32 = (e : EReal) :=
  ⟨10995116 * (2 ^ 40)⁻¹, by positivity, eps_eq⟩

/-- The pattern of zero denotes zero. -/
theorem ofBits_zero : Ideal.ofBits .f32 0x00000000#32 = 0 := Ideal.ofBits_zero_f32

end Cert.BnFold
-- ==== Proof.LibBnFold.lean ====
import Mathlib.Data.EReal.Inv
import Mathlib.Algebra.BigOperators.Fin
import Idealize.ShloMosaic.PureOps.Ideal

/-!
# Folding a batch normalisation into the affine layer before it

A batch-normalised affine layer computes, for each output feature,

  `(((∑ k, x k * w k) + b) - m) * s * g + be`

where `m` is the running mean, `s = 1 / √(v + ε)` the reciprocal standard deviation,
`g` the scale and `be` the shift.  The same number is obtained from an affine layer whose
weights and bias have absorbed the normalisation,

  `(∑ k, x k * (w k * (g * s))) + ((b - m) * (g * s) + be)`.

On the real numbers this is distributivity.  On the extended reals `EReal` multiplication
does not distribute over addition in general, so the identity is proved here for operands
that are (coercions of) real numbers, by moving every coercion to the outside and arguing in
`ℝ`.  The file also records

* that `1 / √(v + ε)` is a (positive) real when `v ≥ 0` and `ε > 0`;
* that a finite sum whose terms vanish from index `n` on equals the sum of its first `n`
  terms (zero padding of a contracted axis changes nothing);
* closure of "is a real number" under sum, difference, product, finite sums and
  `max · 0`, so that the output of one layer can feed the next.
-/

namespace Cert.BnFold

open Idealize.ShloMosaic
open scoped BigOperators

/-! ### Coercion of a finite sum -/

/-- The coercion `ℝ → EReal` commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-! ### The reciprocal square root of a positive real is a positive real -/

/-- `rsqrt` of a positive real is the real `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- For `v ≥ 0` and `ε > 0`, `rsqrt (v + ε)` is a real number. -/
theorem rsqrt_pos_real {v eps : ℝ} (hv : 0 ≤ v) (he : 0 < eps) :
    ∃ s : ℝ, Ideal.rsqrt ((v : EReal) + (eps : EReal)) = (s : EReal) := by
  have hpos : 0 < v + eps := by linarith
  exact ⟨(Real.sqrt (v + eps))⁻¹, by rw [← EReal.coe_add, rsqrt_coe_of_pos hpos]⟩

/-- The same, with the value named and its positivity recorded. -/
theorem rsqrt_pos_real' {v eps : ℝ} (hv : 0 ≤ v) (he : 0 < eps) :
    ∃ s : ℝ, 0 < s ∧ Ideal.rsqrt ((v : EReal) + (eps : EReal)) = (s : EReal) := by
  have hpos : 0 < v + eps := by linarith
  exact ⟨(Real.sqrt (v + eps))⁻¹, inv_pos.mpr (Real.sqrt_pos.mpr hpos),
    by rw [← EReal.coe_add, rsqrt_coe_of_pos hpos]⟩

/-- The form used on extended reals: `V` is a real that is `≥ 0`, `E` a positive real. -/
theorem rsqrt_real_of_nonneg {V E : EReal} (hV : ∃ r : ℝ, V = r) (hV0 : 0 ≤ V)
    (hE : ∃ e : ℝ, 0 < e ∧ E = e) : ∃ s : ℝ, Ideal.rsqrt (V + E) = (s : EReal) := by
  obtain ⟨v, rfl⟩ := hV
  obtain ⟨e, he, rfl⟩ := hE
  exact rsqrt_pos_real (EReal.coe_nonneg.mp hV0) he

/-! ### The fold identity -/

/-- Folding the normalisation into the weights and the bias, for real operands. -/
theorem fold_eq {ι : Type*} [Fintype ι] (x w : ι → ℝ) (b m g be s : ℝ) :
    (∑ k, (x k : EReal) * ((w k : EReal) * ((g : EReal) * (s : EReal))))
        + ((((b : EReal) - (m : EReal)) * ((g : EReal) * (s : EReal))) + (be : EReal))
      = (((((∑ k, (x k : EReal) * (w k : EReal)) + (b : EReal)) - (m : EReal)) * (s : EReal))
          * (g : EReal)) + (be : EReal) := by
  have h : ∑ k, x k * (w k * (g * s)) = (∑ k, x k * w k) * (g * s) := by
    rw [Finset.sum_mul]; exact Finset.sum_congr rfl (fun k _ => by ring)
  simp only [← EReal.coe_mul, ← coe_sum, ← EReal.coe_add, ← EReal.coe_sub]
  rw [h]
  congr 1
  ring

/-- The fold identity for extended reals each of which is known to be a real number. -/
theorem fold_eq_of_real {ι : Type*} [Fintype ι] (X W : ι → EReal) (b m g be s : EReal)
    (hX : ∀ k, ∃ r : ℝ, X k = r) (hW : ∀ k, ∃ r : ℝ, W k = r)
    (hb : ∃ r : ℝ, b = r) (hm : ∃ r : ℝ, m = r) (hg : ∃ r : ℝ, g = r)
    (hbe : ∃ r : ℝ, be = r) (hs : ∃ r : ℝ, s = r) :
    (∑ k, X k * (W k * (g * s))) + (((b - m) * (g * s)) + be)
      = (((((∑ k, X k * W k) + b) - m) * s) * g) + be := by
  choose x hx using hX
  choose w hw using hW
  obtain ⟨b, rfl⟩ := hb
  obtain ⟨m, rfl⟩ := hm
  obtain ⟨g, rfl⟩ := hg
  obtain ⟨be, rfl⟩ := hbe
  obtain ⟨s, rfl⟩ := hs
  obtain rfl : X = fun k => (x k : EReal) := funext hx
  obtain rfl : W = fun k => (w k : EReal) := funext hw
  exact fold_eq x w b m g be s

/-! ### Zero padding of the contracted axis -/

/-- A sum over `Fin N` whose terms vanish from index `n` on is the sum of the first `n` terms. -/
theorem sum_pad {M : Type*} [AddCommMonoid M] {n N : ℕ} (h : n ≤ N) (f : Fin N → M)
    (hf : ∀ k : Fin N, n ≤ k.val → f k = 0) :
    ∑ k : Fin N, f k = ∑ k : Fin n, f (Fin.castLE h k) := by
  obtain ⟨d, rfl⟩ := Nat.exists_eq_add_of_le h
  rw [Fin.sum_univ_add]
  have hz : ∑ i : Fin d, f (Fin.natAdd n i) = 0 :=
    Finset.sum_eq_zero (fun i _ => hf _ (by simp))
  rw [hz, add_zero]
  rfl

/-! ### Real numbers are closed under the operations of a layer -/

theorem exists_real_add {a b : EReal} (ha : ∃ r : ℝ, a = r) (hb : ∃ r : ℝ, b = r) :
    ∃ r : ℝ, a + b = r := by
  obtain ⟨x, rfl⟩ := ha; obtain ⟨y, rfl⟩ := hb
  exact ⟨x + y, (EReal.coe_add x y).symm⟩

theorem exists_real_sub {a b : EReal} (ha : ∃ r : ℝ, a = r) (hb : ∃ r : ℝ, b = r) :
    ∃ r : ℝ, a - b = r := by
  obtain ⟨x, rfl⟩ := ha; obtain ⟨y, rfl⟩ := hb
  exact ⟨x - y, (EReal.coe_sub x y).symm⟩

theorem exists_real_mul {a b : EReal} (ha : ∃ r : ℝ, a = r) (hb : ∃ r : ℝ, b = r) :
    ∃ r : ℝ, a * b = r := by
  obtain ⟨x, rfl⟩ := ha; obtain ⟨y, rfl⟩ := hb
  exact ⟨x * y, (EReal.coe_mul x y).symm⟩

theorem exists_real_sum {ι : Type*} (t : Finset ι) (f : ι → EReal)
    (hf : ∀ k ∈ t, ∃ r : ℝ, f k = r) : ∃ r : ℝ, ∑ k ∈ t, f k = r := by
  classical
  induction t using Finset.induction_on with
  | empty => exact ⟨0, by simp⟩
  | insert a t ha ih =>
    rw [Finset.sum_insert ha]
    exact exists_real_add (hf a (Finset.mem_insert_self a t))
      (ih (fun k hk => hf k (Finset.mem_insert_of_mem hk)))

/-- The sum over a whole finite type. -/
theorem exists_real_sum_univ {ι : Type*} [Fintype ι] (f : ι → EReal)
    (hf : ∀ k, ∃ r : ℝ, f k = r) : ∃ r : ℝ, ∑ k, f k = r :=
  exists_real_sum Finset.univ f (fun k _ => hf k)

/-- The coercion commutes with `max`. -/
theorem coe_max (x y : ℝ) : ((max x y : ℝ) : EReal) = max (x : EReal) (y : EReal) :=
  EReal.coe_strictMono.monotone.map_max

theorem exists_real_max {a b : EReal} (ha : ∃ r : ℝ, a = r) (hb : ∃ r : ℝ, b = r) :
    ∃ r : ℝ, max a b = r := by
  obtain ⟨x, rfl⟩ := ha; obtain ⟨y, rfl⟩ := hb
  exact ⟨max x y, (coe_max x y).symm⟩

theorem exists_real_max_zero {a : EReal} (ha : ∃ r : ℝ, a = r) : ∃ r : ℝ, max a 0 = r :=
  exists_real_max ha ⟨0, rfl⟩

theorem exists_real_zero_max {a : EReal} (ha : ∃ r : ℝ, a = r) : ∃ r : ℝ, max 0 a = r :=
  exists_real_max ⟨0, rfl⟩ ha

end Cert.BnFold
-- ==== Proof.Laws.lean ====
/-
  The laws on the extended reals that join the two programs: the integer bounds ±128 converted to floats are the
  float literals ±128; dividing by 2048 and multiplying by 128 is multiplying by 1/16; and for real weights the
  scaled weights are real, so that adding their difference with themselves (zero) changes nothing.
-/
import proofs.«158305_j35399120453871_2_alg».proof.Proof.Spec
import proofs.«158305_j35399120453871_2_alg».proof.Proof.LibEps
import proofs.«158305_j35399120453871_2_alg».proof.Proof.LibBnFold

noncomputable section

namespace Cert.BitLinear

open Idealize.ShloMosaic Idealize.ShloMosaic.ValueIdx
open scoped BigOperators

/-! ### The float literals as real numbers -/

/-- The pattern `0x43000000` denotes 128. -/
theorem ofBits_128 : Ideal.ofBits .f32 0x43000000#32 = ((128 : ℝ) : EReal) := by
  simp [Ideal.ofBits, Ideal.ieee, -EReal.coe_mul]
  norm_num

/-- The pattern `0xC3000000` denotes -128. -/
theorem ofBits_neg128 : Ideal.ofBits .f32 0xC3000000#32 = ((-128 : ℝ) : EReal) := by
  simp [Ideal.ofBits, Ideal.ieee, -EReal.coe_mul]
  norm_num

/-- The pattern `0x45000000` denotes 2048. -/
theorem ofBits_2048 : Ideal.ofBits .f32 0x45000000#32 = ((2048 : ℝ) : EReal) := by
  simp [Ideal.ofBits, Ideal.ieee, -EReal.coe_mul]
  norm_num

/-- The pattern `0x3D800000` denotes 1/16. -/
theorem ofBits_sixteenth : Ideal.ofBits .f32 0x3D800000#32 = ((1 / 16 : ℝ) : EReal) := by
  simp [Ideal.ofBits, Ideal.ieee, -EReal.coe_mul]
  norm_num

/-- The pattern `0x4A800000` denotes 2²² = 4194304. -/
theorem ofBits_two22 : Ideal.ofBits .f32 0x4A800000#32 = ((4194304 : ℝ) : EReal) := by
  simp [Ideal.ofBits, Ideal.ieee, -EReal.coe_mul]
  norm_num

/-- The integer 128 converted to a float is the float literal 128. -/
theorem sitofp_pos128 : FloatOps.sitofp (F := Ideal) .f32 (128#32 : BitVec 32) = Ideal.ofBits .f32 0x43000000#32 := by
  rw [ofBits_128]
  show (((128#32 : BitVec 32).toInt : ℝ) : EReal) = _
  have h : (128#32 : BitVec 32).toInt = 128 := by decide
  rw [h]; norm_num

/-- The integer -128 (two's complement) converted to a float is the float literal -128. -/
theorem sitofp_neg128 : FloatOps.sitofp (F := Ideal) .f32 (4294967168#32 : BitVec 32) = Ideal.ofBits .f32 0xC3000000#32 := by
  rw [ofBits_neg128]
  show (((4294967168#32 : BitVec 32).toInt : ℝ) : EReal) = _
  have h : (4294967168#32 : BitVec 32).toInt = -128 := by decide
  rw [h]; norm_num

/-- `y / 2048 · 128 = y · (1/16)` on every extended real. -/
theorem scale_law (y : EReal) :
    Ideal.div y (Ideal.ofBits .f32 0x45000000#32) * Ideal.ofBits .f32 0x43000000#32 = y * Ideal.ofBits .f32 0x3D800000#32 := by
  rw [ofBits_2048, ofBits_128, ofBits_sixteenth, Ideal.div_coe (by norm_num : (2048 : ℝ) ≠ 0), mul_assoc,
    ← EReal.coe_mul]
  norm_num

section Quant

variable (hred : SW.ReducesTo [0, 1] S0) (h0 : 0 < S0.numel) (hb : S0.BroadcastsInDim SW (![] : Fin 0 → Fin SW.rank))

/-- The divisor `Σ|w| / 2²² + ε` of real weights is a positive real. -/
theorem divisor_pos_real (w : FVec Ideal SW .f32) (hw : ∀ i, ∃ r : ℝ, w i = (r : EReal)) (k : S0.Idx) :
    ∃ d : ℝ, 0 < d ∧
      addf (Host.divf (Host.reduceAdd (Host.absf w) (constant (F := Ideal) S0 .f32 0x00000000#32) hred h0)
        (constant (F := Ideal) S0 .f32 0x4A800000#32)) (constant (F := Ideal) S0 .f32 0x3727C5AC#32) k = (d : EReal) := by
  choose r hr using hw
  obtain ⟨e, he, hE⟩ := Cert.BnFold.eps_real
  have hsum : Host.reduceAdd (Host.absf w) (constant (F := Ideal) S0 .f32 0x00000000#32) hred h0 k
      = ((∑ i : SW.Idx, |r i| : ℝ) : EReal) := by
    simp only [Host.reduceAdd, Ideal.hostReduceAdd_def]
    rw [Ideal.hostReduceAdd_total hred (fun b => b.elim0) _ _ k]
    show Ideal.ofBits .f32 0x00000000#32 + _ = _
    rw [Ideal.ofBits_zero_f32, zero_add, Cert.BnFold.coe_sum]
    refine Finset.sum_congr rfl (fun i _ => ?_)
    show max (w i) (-(w i)) = _
    rw [hr i, ← EReal.coe_neg, ← Cert.BnFold.coe_max]
    rfl
  refine ⟨(∑ i : SW.Idx, |r i|) * (1 / 4194304) + e, ?_, ?_⟩
  · have : 0 ≤ ∑ i : SW.Idx, |r i| := Finset.sum_nonneg (fun i _ => abs_nonneg _)
    positivity
  · show Ideal.div (Host.reduceAdd (Host.absf w) (constant (F := Ideal) S0 .f32 0x00000000#32) hred h0 k)
        (Ideal.ofBits .f32 0x4A800000#32) + Ideal.ofBits .f32 0x3727C5AC#32 = _
    rw [hsum, ofBits_two22, hE, Ideal.div_coe (by norm_num : (4194304 : ℝ) ≠ 0), ← EReal.coe_mul, ← EReal.coe_add]

/-- A scalar broadcast to the weights' shape reads the scalar at every entry. -/
theorem broadcast_scalar {α : Type} (x : S0.Idx → α) (i : SW.Idx) (k : S0.Idx) :
    broadcastInDim SW (![] : Fin 0 → Fin SW.rank) hb x i = x k := by
  unfold broadcastInDim
  exact congrArg x (funext fun a => a.elim0)

/-- Real weights have real scaled weights: the divisor `Σ|w| / 2²² + ε` is a positive real. -/
theorem scaled_real (w : FVec Ideal SW .f32) (hw : ∀ i, ∃ r : ℝ, w i = (r : EReal)) :
    ∀ i, ∃ r : ℝ, scaled hred h0 hb w i = (r : EReal) := by
  intro i
  obtain ⟨a, ha⟩ := hw i
  obtain ⟨d, hd, hD⟩ := divisor_pos_real hred h0 w hw (fun a => a.elim0)
  refine ⟨a * (1 / d), ?_⟩
  show Ideal.div (w i) (broadcastInDim SW _ hb _ i) = _
  rw [broadcast_scalar hb _ i (fun a => a.elim0), hD, ha, Ideal.div_coe hd.ne',
    ← EReal.coe_mul]

/-- For real weights, adding `scaled w - scaled w` (zero at every entry) to the ternary weights changes nothing. -/
theorem quant_add_sub (w : FVec Ideal SW .f32) (hw : ∀ i, ∃ r : ℝ, w i = (r : EReal)) :
    addf (quant hred h0 hb w) (subf (scaled hred h0 hb w) (scaled hred h0 hb w)) = quant hred h0 hb w := by
  funext i
  obtain ⟨r, hr⟩ := scaled_real hred h0 hb w hw i
  rw [addf_apply, subf_apply, hr, ← EReal.coe_sub, sub_self, EReal.coe_zero, add_zero]

end Quant

end Cert.BitLinear

end
-- ==== Proof.RefSide.lean ====
/-
  The reference program's result is the specification, for real weights.

  The reference computes, entry by entry, min(128, max(-128, (Σ_k x(b,s,k) · q'(o,k)) / 2048 · 128)), where the bounds
  ±128 are integers converted to floats and q' = quant w + (scaled w - scaled w). For real weights the scaled weights
  are real, so the difference is zero and q' = quant w; the converted bounds are the float literals ±128; and dividing
  by 2048 then multiplying by 128 is multiplying by 1/16. What remains is the specification's clampScale of dotRow.
-/
import proofs.«158305_j35399120453871_2_alg».proof.Proof.Gen.ReferenceIdeal.Read
import proofs.«158305_j35399120453871_2_alg».proof.Proof.Laws

noncomputable section

namespace Cert.BitLinear.RefSide

open Idealize.ShloMosaic Idealize.ShloMosaic.ValueIdx
open Cert.ReferenceIdeal Cert.ReferenceIdeal.Read
open scoped BigOperators

/-- The reference's quotient w / (Σ|w| / 2²² + ε) is the specification's scaled weights: the same chain of operations. -/
theorem v5_eq (w : FVec Ideal SW .f32) :
    val_main_v5 (F := Ideal) w = scaled Facts₀.reducesTo_S2048x2048_S_d0_1 Facts₀.h_S_ Facts₀.bcast_S_S2048x2048 w := rfl

/-- The reference's rounded and clamped quotient is the specification's ternary weights: the same chain of operations. -/
theorem v7_eq (w : FVec Ideal SW .f32) :
    val_main_v7 (F := Ideal) w = quant Facts₀.reducesTo_S2048x2048_S_d0_1 Facts₀.h_S_ Facts₀.bcast_S_S2048x2048 w := rfl

/-- The right factor of the product, quant w + (scaled w - scaled w), is quant w when the weights are real. -/
theorem v9_eq (w : FVec Ideal SW .f32) (hw : ∀ i, ∃ r : ℝ, w i = (r : EReal)) :
    val_main_v9 (F := Ideal) w = quant Facts₀.reducesTo_S2048x2048_S_d0_1 Facts₀.h_S_ Facts₀.bcast_S_S2048x2048 w :=
  quant_add_sub Facts₀.reducesTo_S2048x2048_S_d0_1 Facts₀.h_S_ Facts₀.bcast_S_S2048x2048 w hw

/-- At result entry (b, s, o), term k of the product reads the activations at (b, s, k) … -/
theorem lidx_eq (b : Fin 4) (s : Fin 4096) (o k : Fin 2048) : lidx_main_v10 (ix3 b s o) k = ix3 b s k := by
  funext a
  match a with
  | ⟨0, _⟩ => rfl
  | ⟨1, _⟩ => rfl
  | ⟨2, _⟩ => rfl

/-- … and the weights at (o, k). -/
theorem ridx_eq (b : Fin 4) (s : Fin 4096) (o k : Fin 2048) : ridx_main_v10 (ix3 b s o) k = ix2 o k := by
  funext a
  match a with
  | ⟨0, _⟩ => rfl
  | ⟨1, _⟩ => rfl

open Cert.ReferenceIdeal in
/-- The reference's result array is the specification's result of the activations and the ternary weights. -/
theorem ref_eq (x : FVec Ideal SX .f32) (w : FVec Ideal SW .f32) (hw : ∀ i, ∃ r : ℝ, w i = (r : EReal)) :
    Cert.ReferenceIdeal.Read.val_main_v15 (F := Ideal) x w
      = result x (quant Cert.ReferenceIdeal.Facts₀.reducesTo_S2048x2048_S_d0_1 Cert.ReferenceIdeal.Facts₀.h_S_ Cert.ReferenceIdeal.Facts₀.bcast_S_S2048x2048 w) := by
  funext i
  obtain ⟨b, s, o, rfl⟩ : ∃ b s o, i = ix3 b s o := ⟨_, _, _, eq_ix3 i⟩
  -- read the result entry through the operations, outermost first, down to the sum of products
  rw [val_main_v15_apply, val_main_call2_v4_apply, val_main_call2_v3_apply, val_main_c_6_apply,
    val_main_call2_v2_apply, val_main_call2_v1_apply, val_main_call2_v0_apply, val_main_c_apply,
    val_main_v14_apply, val_main_v13_apply, val_main_cst_5_apply, val_main_v12_apply, val_main_v11_apply,
    val_main_cst_4_apply, val_main_v10_apply, v9_eq w hw]
  -- the converted integer bounds are the float literals ±128
  rw [sitofp_pos128, sitofp_neg128]
  -- on the extended reals the operations are min, max, product and quotient
  simp only [Ideal.minimumf_def, Ideal.maximumf_def, Ideal.mulf_def, Ideal.hostDivf_def, Ideal.ofBits_def]
  -- (Σ / 2048) · 128 = Σ · (1/16)
  rw [scale_law]
  -- term k reads x at (b, s, k) and the ternary weights at (o, k): the specification's row product, scaled and clamped
  simp only [lidx_eq, ridx_eq]
  rfl

end Cert.BitLinear.RefSide

end
-- ==== Proof.Finite.lean ====
/-
  From the precondition to "every weight is a real number".

  The precondition says that the conjunction, over all entries, of |x| < +∞ (activations) and of |w| < +∞ (weights)
  is true. A conjunction over all entries that is true is true at each entry; an extended real whose absolute value
  max(w, -w) is below +∞ is neither +∞ nor -∞, so it is a real.
-/
import proofs.«158305_j35399120453871_2_alg».proof.Defs
import proofs.«158305_j35399120453871_2_alg».proof.Proof.Gen.Pre_finite_inputs
import Idealize.ShloMosaic.Lib.ReduceAll
import Idealize.ShloMosaic.Lib.ValueIdx

noncomputable section

namespace Cert.BitLinear.Finite

open Idealize.ShloMosaic Idealize.SL.Sem

/-- A scalar has one index. -/
instance : Subsingleton Cert.Pre_finite_inputs.S_.Idx := ⟨fun a b => funext fun d => d.elim0⟩

/-- The float word 0x7F800000 is +∞. -/
theorem top_bits : Ideal.ofBits .f32 0x7F800000#32 = (⊤ : EReal) := by
  simp [Ideal.ofBits, Ideal.ieee]

/-- An extended real with max(x, -x) < +∞ is a real: +∞ has max(x, -x) = +∞, and so has -∞. -/
theorem real_of_abs_lt_top (x : EReal) (h : Ideal.cmp .olt (max x (-x)) (Ideal.ofBits .f32 0x7F800000#32) = 1#1) :
    ∃ r : ℝ, x = (r : EReal) := by
  rw [top_bits] at h
  induction x using EReal.rec with
  | bot => simp [Ideal.cmp] at h
  | coe r => exact ⟨r, rfl⟩
  | top => simp [Ideal.cmp] at h

/-- Under the precondition every weight is a real number. The precondition at its one index is the conjunction of the
    two reductions; the second, a conjunction over every weight entry of |w| < +∞, being true is true at each entry. -/
theorem weights_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) := by
  intro i
  have h := congrFun (hpre c) ValueIdx.ix0
  dsimp only [Cert.Pre_finite_inputs.fn] at h
  have h2 := (IntOp.andi_eq_one.1 h).2
  have h3 := Host.reduce_andi_all _ _ _ _ _ h2 i
  exact real_of_abs_lt_top _ h3

end Cert.BitLinear.Finite

end
-- ==== Proof.lean ====
/-
  The certificate: a ternary-weight linear layer. The weights are divided by the mean of their absolute values
  (plus a small offset), rounded and clamped to {-1, 0, 1}; every activation row is multiplied with every ternary
  weight row, and the product is scaled by 128/2048 and clamped to [-128, 128].

  The kernel walks each block of 512 rows through four blocks of 512 columns, accumulating the partial products,
  and scales and clamps at the last; the reference multiplies whole rows, divides by 2048 and multiplies by 128.
  On the extended reals a sum may be grouped in any order, dividing by 2048 then multiplying by 128 is multiplying
  by 1/16, and for finite weights the reference's extra term `Wn - Wn` is zero: the two results are one function
  of the arguments (Spec.lean), entry by entry. The idealization rewrote nothing.
-/
import proofs.«158305_j35399120453871_2_alg».proof.Defs
import proofs.«158305_j35399120453871_2_alg».proof.Proof.Gen.Kernel
import proofs.«158305_j35399120453871_2_alg».proof.Proof.Gen.Kernel.Skeleton
import proofs.«158305_j35399120453871_2_alg».proof.Proof.Gen.Kernel.Launch
import proofs.«158305_j35399120453871_2_alg».proof.Proof.Gen.Kernel.Points
import proofs.«158305_j35399120453871_2_alg».proof.Proof.Gen.Kernel.Frame
import proofs.«158305_j35399120453871_2_alg».proof.Proof.Gen.KernelIdeal
import proofs.«158305_j35399120453871_2_alg».proof.Proof.Gen.KernelIdeal.Skeleton
import proofs.«158305_j35399120453871_2_alg».proof.Proof.Gen.KernelIdeal.Launch
import proofs.«158305_j35399120453871_2_alg».proof.Proof.Gen.KernelIdeal.Points
import proofs.«158305_j35399120453871_2_alg».proof.Proof.Gen.KernelIdeal.Frame
import proofs.«158305_j35399120453871_2_alg».proof.Proof.Gen.ReferenceIdeal
import proofs.«158305_j35399120453871_2_alg».proof.Proof.Gen.ReferenceIdeal.Run
import proofs.«158305_j35399120453871_2_alg».proof.Proof.Gen.ReferenceIdeal.Read
import proofs.«158305_j35399120453871_2_alg».proof.Proof.Gen.Pre_finite_inputs
import proofs.«158305_j35399120453871_2_alg».proof.Proof.KRun
import proofs.«158305_j35399120453871_2_alg».proof.Proof.RefSide
import proofs.«158305_j35399120453871_2_alg».proof.Proof.Finite
import Idealize.ShloMosaic.Adequacy
import Idealize.ShloMosaic.Init

noncomputable section

namespace Cert.Proof

open Idealize.ShloMosaic Idealize.SL.Sem Cert.Kernel

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of their (agreeing) arguments: the kernel by its run read back, the
    reference by its run and, the weights being finite, the law that removes `Wn - Wn`. -/
theorem algebraic : Cert.algebraic_KernelIdeal_ReferenceIdeal := by
  intro m ρ m' ρ' hpre hagree
  refine ⟨fun c => Cert.BitLinear.result (m ((c.tc : Thread Cert.KernelIdeal.nD Cert.KernelIdeal.τ).loc Cert.KernelIdeal.main_arg0)) (Cert.KernelIdeal.RunVal.q m c),
    Cert.KernelIdeal.RunVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact Cert.BitLinear.RefSide.ref_eq _ _ (Cert.BitLinear.Finite.weights_real m hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
